-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S4096x128 .f32 .bf16
  ∧ IdealRules.truncf_extf.Statement Cert.KernelIdeal.S4096x128 .f32 .bf16
  ∧ IdealRules.truncf_extf.Statement Cert.KernelIdeal.S4096x128 .f32 .bf16
  ∧ IdealRules.truncf_extf.Statement Cert.KernelIdeal.S4096x128 .f32 .bf16
  ∧ IdealRules.truncf_extf.Statement Cert.KernelIdeal.S4096x128 .f32 .bf16
  ∧ IdealRules.truncf_extf.Statement Cert.KernelIdeal.S4096x128 .f32 .bf16
  ∧ IdealRules.truncf_extf.Statement Cert.KernelIdeal.S4096x128 .f32 .bf16
  ∧ IdealRules.truncf_extf.Statement Cert.KernelIdeal.S4096x128 .f32 .bf16
  ∧ IdealRules.truncf_extf.Statement Cert.KernelIdeal.S4096x128 .f32 .bf16
  ∧ IdealRules.truncf_extf.Statement Cert.KernelIdeal.S4096x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024x8x8 : Shape := ⟨4, ![2048, 1024, 8, 8]⟩
abbrev S_ : Shape := ⟨0, ![]⟩

class Facts : Prop where
  bcast_S_S2048x1024x8x8 : S_.BroadcastsInDim S2048x1024x8x8 (![] : Fin 0 → Fin S2048x1024x8x8.rank)
  reducesTo_S2048x1024x8x8_S_d0_1_2_3 : S2048x1024x8x8.ReducesTo [0, 1, 2, 3] S_
  h_S_ : 0 < S_.numel

variable [Facts]

def fn {F : FTy → Type} [FloatOps F] (main_arg0 : FVec F S2048x1024x8x8 .f32) : IVec S_ 1 :=
  let main_v0 : FVec F S2048x1024x8x8 .f32 := Host.absf main_arg0
  let main_cst : FVec F S_ .f32 := constant S_ .f32 0x7F800000#32
  let main_v1 : FVec F S2048x1024x8x8 .f32 := broadcastInDim S2048x1024x8x8 ![] bcast_S_S2048x1024x8x8 main_cst
  let main_v2 : IVec S2048x1024x8x8 1 := cmpf .olt main_v0 main_v1
  let main_c : IVec S_ 1 := constantI S_ 1 1#1
  let main_v3 : IVec S_ 1 := (fun x v => Host.reduce IntOp.andi x v reducesTo_S2048x1024x8x8_S_d0_1_2_3 h_S_) main_v2 main_c
  main_v3
-- ==== Kernel.lean ====
abbrev S2048x1024x8x8 : Shape := ⟨4, ![2048, 1024, 8, 8]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1048576x128 : Shape := ⟨2, ![1048576, 128]⟩
abbrev S4096x128 : Shape := ⟨2, ![4096, 128]⟩

abbrev nBuf : Space → Nat
  | .hbm => 79
  | .vmem => 6
  | .smem => 0
  | _ => 0

abbrev bufTy : (tb : Table) → Fin (tcTables nBuf tb) → BufTy
  | .hbm, ⟨0, _⟩ => ⟨S2048x1024x8x8, .f32⟩
  | .hbm, ⟨1, _⟩ => ⟨S128, .i32⟩
  | .hbm, ⟨2, _⟩ => ⟨S_, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S128, .i32⟩
  | .hbm, ⟨7, _⟩ => ⟨S_, .i32⟩
  | .hbm, ⟨8, _⟩ => ⟨S128, .i32⟩
  | .hbm, ⟨9, _⟩ => ⟨S128, .i1⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S1x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S128x128, .bf16⟩
  | .hbm, ⟨26, _⟩ => ⟨S_, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S_, .i1⟩
  | .hbm, ⟨60, _⟩ => ⟨S128, .i1⟩
  | .hbm, ⟨61, _⟩ => ⟨S128, .i1⟩
  | .hbm, ⟨62, _⟩ => ⟨S128, .i1⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i32⟩
  | .hbm, ⟨69, _⟩ => ⟨S128, .i32⟩
  | .hbm, ⟨70, _⟩ => ⟨S128x1, .i32⟩
  | .hbm, ⟨71, _⟩ => ⟨S1x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S128x128, .bf16⟩
  | .hbm, ⟨76, _⟩ => ⟨S1048576x128, .f32⟩
  | .hbm, ⟨77, _⟩ => ⟨S1048576x128, .f32⟩
  | .hbm, ⟨78, _⟩ => ⟨S2048x1024x8x8, .f32⟩
  | .local _ .vmem, ⟨0, _⟩ => ⟨S4096x128, .f32⟩
  | .local _ .vmem, ⟨1, _⟩ => ⟨S4096x128, .f32⟩
  | .local _ .vmem, ⟨2, _⟩ => ⟨S128x128, .bf16⟩
  | .local _ .vmem, ⟨3, _⟩ => ⟨S128x128, .bf16⟩
  | .local _ .vmem, ⟨4, _⟩ => ⟨S4096x128, .f32⟩
  | .local _ .vmem, ⟨5, _⟩ => ⟨S4096x128, .f32⟩
  | _, _ => ⟨S2048x1024x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v8 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v9 : Ref sig .tc := ⟨.hbm, 65, rfl⟩
abbrev main_c_2 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S2048x1024x8x8_S1048576x128 : S2048x1024x8x8.ShapeCasts S1048576x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  shapeCasts_S1048576x128_S2048x1024x8x8 : S1048576x128.ShapeCasts S2048x1024x8x8
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S1048576x128.size a
  hwx0_3 : ∀ i : grid0.Coords, EltTy.bits .f32 = 32 ∨ (Rect.block (s := S1048576x128) S4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v19) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024x8x8 : Shape := ⟨4, ![2048, 1024, 8, 8]⟩
abbrev S2097152x8x8 : Shape := ⟨3, ![2097152, 8, 8]⟩
abbrev S_ : Shape := ⟨0, ![]⟩
abbrev S2097152x8 : Shape := ⟨2, ![2097152, 8]⟩
abbrev S2097152x8x1 : Shape := ⟨3, ![2097152, 8, 1]⟩
abbrev S2097152x1x8 : Shape := ⟨3, ![2097152, 1, 8]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024x8x8, .f32⟩
  | .hbm, ⟨1, _⟩ => ⟨S2097152x8x8, .f32⟩
  | .hbm, ⟨2, _⟩ => ⟨S2097152x8x8, .f32⟩
  | .hbm, ⟨3, _⟩ => ⟨S_, .f32⟩
  | .hbm, ⟨4, _⟩ => ⟨S2097152x8, .f32⟩
  | .hbm, ⟨5, _⟩ => ⟨S2097152x8x1, .f32⟩
  | .hbm, ⟨6, _⟩ => ⟨S2097152x8x8, .f32⟩
  | .hbm, ⟨7, _⟩ => ⟨S2097152x8x8, .f32⟩
  | .hbm, ⟨8, _⟩ => ⟨S_, .f32⟩
  | .hbm, ⟨9, _⟩ => ⟨S2097152x8, .f32⟩
  | .hbm, ⟨10, _⟩ => ⟨S2097152x1x8, .f32⟩
  | .hbm, ⟨11, _⟩ => ⟨S2097152x8x8, .f32⟩
  | .hbm, ⟨12, _⟩ => ⟨S2097152x8x8, .f32⟩
  | .hbm, ⟨13, _⟩ => ⟨S_, .f32⟩
  | .hbm, ⟨14, _⟩ => ⟨S2097152x8, .f32⟩
  | .hbm, ⟨15, _⟩ => ⟨S2097152x8x1, .f32⟩
  | .hbm, ⟨16, _⟩ => ⟨S2097152x8x8, .f32⟩
  | .hbm, ⟨17, _⟩ => ⟨S2097152x8x8, .f32⟩
  | .hbm, ⟨18, _⟩ => ⟨S_, .f32⟩
  | .hbm, ⟨19, _⟩ => ⟨S2097152x8, .f32⟩
  | .hbm, ⟨20, _⟩ => ⟨S2097152x1x8, .f32⟩
  | .hbm, ⟨21, _⟩ => ⟨S2097152x8x8, .f32⟩
  | .hbm, ⟨22, _⟩ => ⟨S2097152x8x8, .f32⟩
  | .hbm, ⟨23, _⟩ => ⟨S_, .f32⟩
  | .hbm, ⟨24, _⟩ => ⟨S2097152x8, .f32⟩
  | .hbm, ⟨25, _⟩ => ⟨S2097152x8x1, .f32⟩
  | .hbm, ⟨26, _⟩ => ⟨S2097152x8x8, .f32⟩
  | .hbm, ⟨27, _⟩ => ⟨S2097152x8x8, .f32⟩
  | .hbm, ⟨28, _⟩ => ⟨S_, .f32⟩
  | .hbm, ⟨29, _⟩ => ⟨S2097152x8, .f32⟩
  | .hbm, ⟨30, _⟩ => ⟨S2097152x1x8, .f32⟩
  | .hbm, ⟨31, _⟩ => ⟨S2097152x8x8, .f32⟩
  | .hbm, ⟨32, _⟩ => ⟨S2097152x8x8, .f32⟩
  | .hbm, ⟨33, _⟩ => ⟨S_, .f32⟩
  | .hbm, ⟨34, _⟩ => ⟨S2097152x8, .f32⟩
  | .hbm, ⟨35, _⟩ => ⟨S2097152x8x1, .f32⟩
  | .hbm, ⟨36, _⟩ => ⟨S2097152x8x8, .f32⟩
  | .hbm, ⟨37, _⟩ => ⟨S2097152x8x8, .f32⟩
  | .hbm, ⟨38, _⟩ => ⟨S_, .f32⟩
  | .hbm, ⟨39, _⟩ => ⟨S2097152x8, .f32⟩
  | .hbm, ⟨40, _⟩ => ⟨S2097152x1x8, .f32⟩
  | .hbm, ⟨41, _⟩ => ⟨S2097152x8x8, .f32⟩
  | .hbm, ⟨42, _⟩ => ⟨S2097152x8x8, .f32⟩
  | .hbm, ⟨43, _⟩ => ⟨S_, .f32⟩
  | .hbm, ⟨44, _⟩ => ⟨S2097152x8, .f32⟩
  | .hbm, ⟨45, _⟩ => ⟨S2097152x8x1, .f32⟩
  | .hbm, ⟨46, _⟩ => ⟨S2097152x8x8, .f32⟩
  | .hbm, ⟨47, _⟩ => ⟨S2097152x8x8, .f32⟩
  | .hbm, ⟨48, _⟩ => ⟨S_, .f32⟩
  | .hbm, ⟨49, _⟩ => ⟨S2097152x8, .f32⟩
  | .hbm, ⟨50, _⟩ => ⟨S2097152x1x8, .f32⟩
  | .hbm, ⟨51, _⟩ => ⟨S2097152x8x8, .f32⟩
  | .hbm, ⟨52, _⟩ => ⟨S2097152x8x8, .f32⟩
  | .hbm, ⟨53, _⟩ => ⟨S2048x1024x8x8, .f32⟩
  | _, _ => ⟨S2048x1024x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_6 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_8 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]

class Facts₀ : Prop where
  shapeCasts_S2048x1024x8x8_S2097152x8x8 : S2048x1024x8x8.ShapeCasts S2097152x8x8
  reducesTo_S2097152x8x8_S2097152x8_d2 : S2097152x8x8.ReducesTo [2] S2097152x8
  h_S_ : 0 < S_.numel
  bcast_S2097152x8_S2097152x8x1_0_1 : S2097152x8.BroadcastsInDim S2097152x8x1 (![0, 1] : Fin 2 → Fin S2097152x8x1.rank)
  bcast_S2097152x8x1_S2097152x8x8_0_1_2 : S2097152x8x1.BroadcastsInDim S2097152x8x8 (![0, 1, 2] : Fin 3 → Fin S2097152x8x8.rank)
  reducesTo_S2097152x8x8_S2097152x8_d1 : S2097152x8x8.ReducesTo [1] S2097152x8
  bcast_S2097152x8_S2097152x1x8_0_2 : S2097152x8.BroadcastsInDim S2097152x1x8 (![0, 2] : Fin 2 → Fin S2097152x1x8.rank)
  bcast_S2097152x1x8_S2097152x8x8_0_1_2 : S2097152x1x8.BroadcastsInDim S2097152x8x8 (![0, 1, 2] : Fin 3 → Fin S2097152x8x8.rank)
  shapeCasts_S2097152x8x8_S2048x1024x8x8 : S2097152x8x8.ShapeCasts S2048x1024x8x8

variable [Facts₀]

class Facts : Prop extends Facts₀ where

variable [Facts]
-- ==== Proof.Finite.lean ====
/-
  The precondition read back: an input on which `finite_inputs` holds has a real number at every index.

  The predicate is `jnp.all (|x| < +inf)`: one comparison per entry, reduced by `and` from 1. A reduction by `and`
  that comes out 1 met a 1 at every entry, and on the extended reals `max x (-x) < ⊤` excludes both infinities.
-/
import proofs.«125687_j84765474554153_2_alg».proof.Pre_finite_inputs
import proofs.«125687_j84765474554153_2_alg».proof.Proof.Gen.Pre_finite_inputs
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton Cert.Pre_finite_inputs.S_.Idx := ⟨fun a b => funext fun d => d.elim0⟩

/-- The f32 pattern of +inf is the top of the extended reals. -/
theorem ofBits_inf : Ideal.ofBits .f32 0x7F800000#32 = (⊤ : EReal) := by simp [Ideal.ofBits, Ideal.ieee]

/-- Where the predicate is 1, every entry of the input is a real number. -/
theorem real_of_pre (x : FVec Ideal S2048x1024x8x8 .f32)
    (h : Cert.Pre_finite_inputs.fn (F := Ideal) x = fun _ => 1#1) (i : S2048x1024x8x8.Idx) :
    ∃ r : ℝ, x i = (r : EReal) := by
  have h0 := congrFun h ix0
  dsimp only [Cert.Pre_finite_inputs.fn] at h0
  have hi := Host.reduce_andi_all _ _ _ _ _ h0 i
  have hlt : max (x i) (-(x i)) < (⊤ : EReal) := by
    have e : Ideal.cmp .olt (max (x i) (-(x i))) (Ideal.ofBits .f32 0x7F800000#32) = 1#1 := hi
    rw [ofBits_inf] at e
    unfold Ideal.cmp at e
    by_contra hn
    simp only [hn, decide_false] at e
    exact absurd e (by decide)
  induction hx : x i using EReal.rec with
  | bot => rw [hx] at hlt; simp at hlt
  | top => rw [hx] at hlt; simp at hlt
  | coe r => exact ⟨r, rfl⟩

end Cert.Finite

end
-- ==== Proof.LibRealEntries.lean ====
/-
  Real numbers inside the extended reals, for kernels whose inputs are finite: three facts a proof needs once it knows
  that the entries it meets are real numbers.

  * a finite sum of real numbers, each read as an extended real, is the real sum read as an extended real
    (`coe_sum`);
  * the quotient the ideal instance gives two real numbers, the divisor positive, is their real quotient
    (`div_pos_coe`); in particular it is again a real number, and positive when the dividend is;
  * a real number minus itself is zero (`sub_self_of_real`) — on the extended reals `x - x` is zero only for real `x`
    (`⊤ - ⊤ = ⊥`), which is what makes a split such as `x = hi + (x - hi)` collapse.
-/
import Idealize.ShloMosaic.PureOps.Ideal

noncomputable section

namespace Cert.LibRealEntries

open Idealize.ShloMosaic

/-- A sum of reals, over any finite index set, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A real divided by a positive real, at the ideal values, is their real quotient. -/
theorem div_pos_coe {a b : ℝ} (hb : 0 < b) : Ideal.div (a : EReal) (b : EReal) = ((a / b : ℝ) : EReal) := by
  rw [Ideal.div_coe hb.ne', ← EReal.coe_mul]; congr 1; ring

/-- A real minus itself is zero on the extended reals. -/
theorem sub_self_of_real {x : EReal} (hx : ∃ r : ℝ, x = (r : EReal)) : x - x = 0 := by
  obtain ⟨r, rfl⟩ := hx
  rw [← EReal.coe_sub, sub_self, EReal.coe_zero]

end Cert.LibRealEntries

end
-- ==== Proof.Spec.lean ====
/-
  The mathematics both programs compute, stated once and away from either program.

  The input is 2048 x 1024 independent 8 x 8 matrices. Each is exponentiated entrywise and then normalised five
  times: every row divided by its sum, then every column divided by its sum (Sinkhorn-Knopp). `sink` is that
  function of one matrix over the extended reals, `G` the whole array's.

  The kernel sees the same numbers as rows of 128 lanes, lane `h * 64 + i * 8 + j` holding entry (i, j) of the
  row's matrix number h (h = 0, 1). It forms a row sum as a product with a 0/1 matrix that relates two lanes of the
  same matrix row (`BrowT`), a column sum likewise (`BcolT`), and it adds to each such product the product of
  `M - M` with the same 0/1 matrix. On the extended reals `M - M` is zero exactly where `M` is a real number, so the
  two forms agree on matrices of positive reals, and positivity is kept by both normalisations: a sum of eight
  positive reals is a positive real, and a positive real divided by one is one. `laneSink_eq` is the statement.
-/
import Idealize.ShloMosaic.PureOps.Ideal
import Idealize.ShloMosaic.Lib.ValueIdx
import proofs.«125687_j84765474554153_2_alg».proof.Proof.LibRealEntries

noncomputable section

namespace Cert.Sinkhorn

open Idealize.ShloMosaic Idealize.ShloMosaic.ValueIdx Cert.LibRealEntries

/-- One 8 x 8 matrix of extended reals. -/
abbrev Mat := Fin 8 → Fin 8 → EReal

/-- Every row divided by its sum. -/
def rowN (A : Mat) : Mat := fun i j => Ideal.div (A i j) (∑ j' : Fin 8, A i j')
/-- Every column divided by its sum. -/
def colN (A : Mat) : Mat := fun i j => Ideal.div (A i j) (∑ i' : Fin 8, A i' j)
/-- One Sinkhorn-Knopp round: rows, then columns. -/
def step (A : Mat) : Mat := colN (rowN A)
/-- The entrywise exponential. -/
def expM (X : Mat) : Mat := fun i j => Ideal.exp (X i j)
/-- Five rounds from the entrywise exponential. -/
def sink (X : Mat) : Mat := step (step (step (step (step (expM X)))))

/-- The whole array: entry (i, j) of matrix (a, b) of the result is `sink` of matrix (a, b) of the input there. -/
def G (x : (⟨4, ![2048, 1024, 8, 8]⟩ : Shape).Idx → EReal) : (⟨4, ![2048, 1024, 8, 8]⟩ : Shape).Idx → EReal :=
  fun o => sink (fun i' j' => x (ix4 (o 0) (o 1) i' j')) (o 2) (o 3)

/-! ## Positivity -/

/-- Every entry is a positive real number. -/
def PosReal (A : Mat) : Prop := ∀ i j, ∃ r : ℝ, 0 < r ∧ A i j = (r : EReal)

theorem expM_pos (X : Mat) (hX : ∀ i j, ∃ r : ℝ, X i j = (r : EReal)) : PosReal (expM X) := by
  intro i j
  obtain ⟨r, hr⟩ := hX i j
  exact ⟨Real.exp r, Real.exp_pos r, by unfold expM; rw [hr]; rfl⟩

theorem rowN_pos {A : Mat} (hA : PosReal A) : PosReal (rowN A) := by
  intro i j
  choose f hf using fun j' => hA i j'
  refine ⟨f j / ∑ j', f j', div_pos (hf j).1 (Finset.sum_pos (fun j' _ => (hf j').1) Finset.univ_nonempty), ?_⟩
  unfold rowN
  rw [show (∑ j' : Fin 8, A i j') = ((∑ j', f j' : ℝ) : EReal) by
    rw [← coe_sum]; exact Finset.sum_congr rfl fun j' _ => (hf j').2, (hf j).2]
  exact div_pos_coe (Finset.sum_pos (fun j' _ => (hf j').1) Finset.univ_nonempty)

theorem colN_pos {A : Mat} (hA : PosReal A) : PosReal (colN A) := by
  intro i j
  choose f hf using fun i' => hA i' j
  refine ⟨f i / ∑ i', f i', div_pos (hf i).1 (Finset.sum_pos (fun i' _ => (hf i').1) Finset.univ_nonempty), ?_⟩
  unfold colN
  rw [show (∑ i' : Fin 8, A i' j) = ((∑ i', f i' : ℝ) : EReal) by
    rw [← coe_sum]; exact Finset.sum_congr rfl fun i' _ => (hf i').2, (hf i).2]
  exact div_pos_coe (Finset.sum_pos (fun i' _ => (hf i').1) Finset.univ_nonempty)

theorem step_pos {A : Mat} (hA : PosReal A) : PosReal (step A) := colN_pos (rowN_pos hA)

/-! ## The same round on 128 lanes -/

/-- The lane of entry (i, j) of a row's matrix number h. -/
def lane (h : Fin 2) (i j : Fin 8) : Fin 128 := ⟨h.val * 64 + i.val * 8 + j.val, by omega⟩

/-- Matrix number h of a row of 128 lanes. -/
def laneMat (M : Fin 128 → EReal) (h : Fin 2) : Mat := fun i j => M (lane h i j)

/-- 1 where two lanes hold entries of the same row of the same matrix, else 0. -/
def BrowT (k l : Fin 128) : EReal := if k.val / 8 = l.val / 8 then 1 else 0
/-- 1 where two lanes hold entries of the same column of the same matrix, else 0. -/
def BcolT (k l : Fin 128) : EReal := if k.val / 64 * 8 + k.val % 8 = l.val / 64 * 8 + l.val % 8 then 1 else 0

/-- One normalisation as the kernel forms it: the divisor at lane l is the product of the row with column l of a 0/1
    matrix, plus the product of `M - M` with the same column. -/
def laneHalf (B : Fin 128 → Fin 128 → EReal) (M : Fin 128 → EReal) : Fin 128 → EReal :=
  fun l => Ideal.div (M l) ((∑ k : Fin 128, M k * B k l) + ∑ k : Fin 128, (M k - M k) * B k l)

/-- One round on the lanes. -/
def laneStep (M : Fin 128 → EReal) : Fin 128 → EReal := laneHalf BcolT (laneHalf BrowT M)
/-- Five rounds from the lanewise exponential. -/
def laneSink (M : Fin 128 → EReal) : Fin 128 → EReal :=
  laneStep (laneStep (laneStep (laneStep (laneStep (fun l => Ideal.exp (M l))))))

end Cert.Sinkhorn

end
-- ==== Proof.HostTables.lean ====
/-
  The three arrays the kernel's call reads, as the host lines before it leave them.

  Two are 128 x 128 tables of zeros and ones: entry (k, l) is 1 where lanes k and l carry the same label. The label
  of lane k is k / 8 rounded down for the first table (the lane's matrix and row) and (k / 64 rounded down) * 8 +
  k mod 8 for the second (the lane's matrix and column); jnp's floor division and remainder print as the truncating
  operations followed by a sign correction, which changes nothing on these non-negative lanes, as evaluating the
  labels on the 128 lanes shows. The third array is the argument reshaped to rows of 128 lanes.
-/
import proofs.«125687_j84765474554153_2_alg».proof.Proof.Gen.KernelIdeal.Frame
import proofs.«125687_j84765474554153_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostTables

open Idealize.ShloMosaic Idealize.ShloMosaic.ValueIdx Idealize.ShloMosaic.TcCoe
open Cert.KernelIdeal Cert.KernelIdeal.Gen

/-! ## The integer vectors the host lines compute

Floor division and the floor remainder of 32-bit words, each as the truncating operation followed by the correction
for operands of different sign, as functions of the dividend vector and the scalar divisor. `gRow` and `gCol` are
the two lane labels built from them. -/

/-- `⌊x / d⌋`: the truncated quotient, one less where the signs differ and the remainder is not zero. -/
def floorDiv (x : IVec S128 32) (d : IVec S_ 32) : IVec S128 32 :=
  select
    (andi
      (cmpi .ne (signi x) (broadcastInDim S128 ![] bcast_S_S128 (signi d)))
      (cmpi .ne (Host.remsi x (broadcastInDim S128 ![] bcast_S_S128 d))
        (broadcastInDim S128 ![] bcast_S_S128 (constantI S_ 32 0#32))))
    (subi (Host.divsi x (broadcastInDim S128 ![] bcast_S_S128 d))
      (broadcastInDim S128 ![] bcast_S_S128 (constantI S_ 32 1#32)))
    (Host.divsi x (broadcastInDim S128 ![] bcast_S_S128 d))

/-- The divisor the floor remainder divides by: 1 in place of 0. -/
def safeDiv (d : IVec S_ 32) : IVec S_ 32 :=
  select (cmpi .eq d (constantI S_ 32 0#32)) (constantI S_ 32 1#32) d

/-- `x - d ⌊x / d⌋`: the truncated remainder, the divisor added where the remainder is not zero and its sign is not
    the divisor's. -/
def floorMod (x : IVec S128 32) (d : IVec S_ 32) : IVec S128 32 :=
  select
    (andi
      (cmpi .ne
        (cmpi .slt (Host.remsi x (broadcastInDim S128 ![] bcast_S_S128 (safeDiv d)))
          (broadcastInDim S128 ![] bcast_S_S128 (constantI S_ 32 0#32)))
        (broadcastInDim S128 ![] bcast_S_S128 (cmpi .slt (safeDiv d) (constantI S_ 32 0#32))))
      (cmpi .ne (Host.remsi x (broadcastInDim S128 ![] bcast_S_S128 (safeDiv d)))
        (broadcastInDim S128 ![] bcast_S_S128 (constantI S_ 32 0#32))))
    (addi (Host.remsi x (broadcastInDim S128 ![] bcast_S_S128 (safeDiv d)))
      (broadcastInDim S128 ![] bcast_S_S128 (safeDiv d)))
    (Host.remsi x (broadcastInDim S128 ![] bcast_S_S128 (safeDiv d)))

/-- The lane's row label: lane / 8, rounded down. -/
def gRow : IVec S128 32 := floorDiv (iotaInDim S128 32 0) (constantI S_ 32 8#32)

/-- The lane's column label: (lane / 64, rounded down) * 8 + lane mod 8. -/
def gCol : IVec S128 32 :=
  addi (muli (floorDiv (iotaInDim S128 32 0) (constantI S_ 32 64#32)) (broadcastInDim S128 ![] bcast_S_S128 (constantI S_ 32 8#32)))
    (floorMod (iotaInDim S128 32 0) (constantI S_ 32 8#32))

/-- The labels evaluated on the 128 lanes. -/
theorem gRow_val : ∀ k : Fin 128, gRow (ix1 k) = BitVec.ofNat 32 (k.val / 8) := by decide +kernel

theorem gCol_val : ∀ k : Fin 128, gCol (ix1 k) = BitVec.ofNat 32 (k.val / 64 * 8 + k.val % 8) := by decide +kernel

/-! ## A 0/1 table of equal labels, read at an index -/

/-- Equality of two small naturals as 32-bit words, converted to an extended real: 1 or 0. -/
theorem eqWord_toReal (a b : Nat) (ha : a < 2 ^ 32) (hb : b < 2 ^ 32) :
    (((IntOp.cmpi .eq (BitVec.ofNat 32 a) (BitVec.ofNat 32 b)).toNat : ℝ) : EReal) = if a = b then 1 else 0 := by
  by_cases h : a = b
  · subst h; rw [if_pos rfl]; simp [IntOp.cmpi]
  · rw [if_neg h]
    have hne : BitVec.ofNat 32 a ≠ BitVec.ofNat 32 b := by
      intro e; apply h
      have := congrArg BitVec.toNat e
      simp only [BitVec.toNat_ofNat] at this
      rwa [Nat.mod_eq_of_lt ha, Nat.mod_eq_of_lt hb] at this
    simp [IntOp.cmpi, hne]

/-- The table `[g k = g l]` built by broadcasting a label vector along rows and along columns, read at (k, l). -/
theorem table_apply (g : IVec S128 32) (k l : Fin 128) :
    (uitofp (F := Ideal) .bf16 (cmpi .eq
        (broadcastInDim S128x128 ![0, 1] bcast_S128x1_S128x128_0_1 (broadcastInDim S128x1 ![0] bcast_S128_S128x1_0 g))
        (broadcastInDim S128x128 ![0, 1] bcast_S1x128_S128x128_0_1 (broadcastInDim S1x128 ![1] bcast_S128_S1x128_1 g)))
      : S128x128.Idx → EReal) (ix2 k l)
    = (((IntOp.cmpi .eq (g (ix1 k)) (g (ix1 l))).toNat : ℝ) : EReal) := by
  have h1 : broadcastInDim S128x128 ![0, 1] bcast_S128x1_S128x128_0_1 (broadcastInDim S128x1 ![0] bcast_S128_S128x1_0 g) (ix2 k l)
      = g (ix1 k) :=
    (broadcastInDim_apply _ _ _ (ix2 k l) (ix2 k (0 : Fin 1)) (fun a => match a with | ⟨0, _⟩ => rfl | ⟨1, _⟩ => rfl)).trans
      (broadcastInDim_apply _ _ _ (ix2 k (0 : Fin 1)) (ix1 k) (fun a => match a with | ⟨0, _⟩ => rfl))
  have h2 : broadcastInDim S128x128 ![0, 1] bcast_S1x128_S128x128_0_1 (broadcastInDim S1x128 ![1] bcast_S128_S1x128_1 g) (ix2 k l)
      = g (ix1 l) :=
    (broadcastInDim_apply _ _ _ (ix2 k l) (ix2 (0 : Fin 1) l) (fun a => match a with | ⟨0, _⟩ => rfl | ⟨1, _⟩ => rfl)).trans
      (broadcastInDim_apply _ _ _ (ix2 (0 : Fin 1) l) (ix1 l) (fun a => match a with | ⟨0, _⟩ => rfl))
  show (((IntOp.cmpi .eq _ _).toNat : ℝ) : EReal) = _
  rw [h1, h2]

/-! ## The three arrays as the region finds them -/

variable (m : (ℓ : Loc nD τ sig) → Buf (Elt Ideal) ℓ) (c : Dev nD)

/-- The third array is the argument, reshaped to rows of 128 lanes. -/
theorem flatInput :
    (V m c main_v19 : S1048576x128.Idx → EReal)
      = shapeCast S1048576x128 (m ((c : Thread nD τ).loc main_arg0)) shapeCasts_S2048x1024x8x8_S1048576x128 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 1000000 in
/-- The first array is the table of equal row labels. -/
theorem rowTerm :
    (V m c main_v7 : S128x128.Idx → EReal)
      = uitofp (F := Ideal) .bf16 (cmpi .eq
          (broadcastInDim S128x128 ![0, 1] bcast_S128x1_S128x128_0_1 (broadcastInDim S128x1 ![0] bcast_S128_S128x1_0 gRow))
          (broadcastInDim S128x128 ![0, 1] bcast_S1x128_S128x128_0_1 (broadcastInDim S1x128 ![1] bcast_S128_S1x128_1 gRow))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 1000000 in
/-- The second array is the table of equal column labels. -/
theorem colTerm :
    (V m c main_v18 : S128x128.Idx → EReal)
      = uitofp (F := Ideal) .bf16 (cmpi .eq
          (broadcastInDim S128x128 ![0, 1] bcast_S128x1_S128x128_0_1 (broadcastInDim S128x1 ![0] bcast_S128_S128x1_0 gCol))
          (broadcastInDim S128x128 ![0, 1] bcast_S1x128_S128x128_0_1 (broadcastInDim S1x128 ![1] bcast_S128_S1x128_1 gCol))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

theorem rowTable_apply (k l : Fin 128) :
    (V m c main_v7 : S128x128.Idx → EReal) (ix2 k l) = Cert.Sinkhorn.BrowT k l := by
  rw [rowTerm m c, table_apply, gRow_val, gRow_val]
  exact eqWord_toReal _ _ (by have := k.isLt; omega) (by have := l.isLt; omega)

theorem colTable_apply (k l : Fin 128) :
    (V m c main_v18 : S128x128.Idx → EReal) (ix2 k l) = Cert.Sinkhorn.BcolT k l := by
  rw [colTerm m c, table_apply, gCol_val, gCol_val]
  exact eqWord_toReal _ _ (by have := k.isLt; omega) (by have := l.isLt; omega)

/-- Lanes k and l of the first array: 1 where they lie in the same row of the same matrix, else 0. -/
theorem rowTable :
    (V m c main_v7 : S128x128.Idx → EReal) = fun y => Cert.Sinkhorn.BrowT (y 0) (y 1) := by
  funext y
  exact (congrArg _ (eq_ix2 y)).trans (rowTable_apply m c (y 0) (y 1))

/-- Lanes k and l of the second array: 1 where they lie in the same column of the same matrix, else 0. -/
theorem colTable :
    (V m c main_v18 : S128x128.Idx → EReal) = fun y => Cert.Sinkhorn.BcolT (y 0) (y 1) := by
  funext y
  exact (congrArg _ (eq_ix2 y)).trans (colTable_apply m c (y 0) (y 1))

end Cert.KernelIdeal.HostTables

end
-- ==== Proof.KernelPayload.lean ====
/-
  The kernel's body, read row by row.

  The body loads a block of 4096 rows of 128 lanes and the two 128 x 128 0/1 matrices, exponentiates the block, and
  ten times replaces the block `M` by `M / (M · B + (M - M) · B)`, `B` alternating between the two matrices; a
  change of float format is the identity on the extended reals. A product with a 128 x 128 matrix into a zero
  accumulator, read at row r and lane l, is the sum over the lanes k of `M(r, k) * B(k, l)`, so each of the ten
  steps acts on every row separately, as `laneHalf` of the specification, and the whole body is `laneSinkG` of the
  loaded row.
-/
import proofs.«125687_j84765474554153_2_alg».proof.Proof.Gen.KernelIdeal.Frame
import proofs.«125687_j84765474554153_2_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Sinkhorn

/-- A 128 x 128 array as a function of two lanes. -/
def tbl (B : S128x128.Idx → EReal) : Fin 128 → Fin 128 → EReal := fun k l => B (ix2 k l)
/-- Row r of a block. -/
def rowOf (M : S4096x128.Idx → EReal) (r : Fin 4096) : Fin 128 → EReal := fun l => M (ix2 r l)

/-- One round on the lanes with any two matrices, and five rounds from the exponential. -/
def laneStepG (Br Bc : Fin 128 → Fin 128 → EReal) (M : Fin 128 → EReal) : Fin 128 → EReal := laneHalf Bc (laneHalf Br M)
def laneSinkG (Br Bc : Fin 128 → Fin 128 → EReal) (M : Fin 128 → EReal) : Fin 128 → EReal :=
  laneStepG Br Bc (laneStepG Br Bc (laneStepG Br Bc (laneStepG Br Bc (laneStepG Br Bc (fun l => Ideal.exp (M l))))))

theorem laneSinkG_tables (M : Fin 128 → EReal) : laneSinkG BrowT BcolT M = laneSink M := rfl

/-- The product of a block with a 128 x 128 matrix into the zero accumulator, at row r and lane l. -/
theorem matmul_at {φ₁ φ₂ : FTy} (lhs : FVec Ideal S4096x128 φ₁) (rhs : FVec Ideal S128x128 φ₂) (r : Fin 4096) (l : Fin 128) :
    matmul dot_S4096x128_S128x128_S4096x128_1_0_0_1_n_n none lhs rhs (constant S4096x128 .f32 0x00000000#32) (ix2 r l)
      = ∑ k : Fin 128, lhs (ix2 r k) * rhs (ix2 k l) := by
  refine (Ideal.matmul_constant_zero_apply dot_S4096x128_S128x128_S4096x128_1_0_0_1_n_n none lhs rhs (ix2 r l)).trans ?_
  rw [← Equiv.sum_comp (contrEquiv1 dot_S4096x128_S128x128_S4096x128_1_0_0_1_n_n 128 rfl rfl).symm]
  refine Finset.sum_congr rfl fun k _ => ?_
  have hl : dot_S4096x128_S128x128_S4096x128_1_0_0_1_n_n.lhsIdx (ix2 r l)
      ((contrEquiv1 dot_S4096x128_S128x128_S4096x128_1_0_0_1_n_n 128 rfl rfl).symm k) = ix2 r k := by
    funext a
    apply Fin.ext
    match a with
    | ⟨0, _⟩ => rfl
    | ⟨1, _⟩ =>
      exact (DotDims.lhsIdx_val_of_single _ (cl := (1 : Fin 2)) rfl (ix2 r l) _).trans
        (contrEquiv1_symm_val dot_S4096x128_S128x128_S4096x128_1_0_0_1_n_n 128 rfl rfl k)
  have hr : dot_S4096x128_S128x128_S4096x128_1_0_0_1_n_n.rhsIdx (ix2 r l)
      ((contrEquiv1 dot_S4096x128_S128x128_S4096x128_1_0_0_1_n_n 128 rfl rfl).symm k) = ix2 k l := by
    funext a
    apply Fin.ext
    match a with
    | ⟨0, _⟩ =>
      exact (DotDims.rhsIdx_val_of_single _ (cr := (0 : Fin 2)) rfl (ix2 r l) _).trans
        (contrEquiv1_symm_val dot_S4096x128_S128x128_S4096x128_1_0_0_1_n_n 128 rfl rfl k)
    | ⟨1, _⟩ => rfl
  rw [hl, hr]

/-- One step of the body on a whole block. -/
def vHalf (B : FVec Ideal S128x128 .bf16) (M : FVec Ideal S4096x128 .f32) : FVec Ideal S4096x128 .f32 :=
  divf M (addf
    (matmul dot_S4096x128_S128x128_S4096x128_1_0_0_1_n_n none (truncf .bf16 M bitsLt_bf16_f32) B (constant S4096x128 .f32 0x00000000#32))
    (matmul dot_S4096x128_S128x128_S4096x128_1_0_0_1_n_n none (truncf .bf16 (subf M M) bitsLt_bf16_f32) B (constant S4096x128 .f32 0x00000000#32)))

/-- It acts on each row separately, as the specification's `laneHalf`. -/
theorem vHalf_row (B : FVec Ideal S128x128 .bf16) (M : FVec Ideal S4096x128 .f32) (r : Fin 4096) :
    rowOf (vHalf B M) r = laneHalf (tbl B) (rowOf M r) := by
  funext l
  show Ideal.div (M (ix2 r l)) (_ + _) = _
  rw [matmul_at, matmul_at]
  rfl

/-- The body's stored value as ten steps from the exponential of the loaded block. -/
def body (x0 : Vec Ideal S4096x128 .f32) (x1 x2 : Vec Ideal S128x128 .bf16) : FVec Ideal S4096x128 .f32 :=
  vHalf (shapeCast S128x128 x2 shapeCasts_S128x128_S128x128) (vHalf (shapeCast S128x128 x1 shapeCasts_S128x128_S128x128)
  (vHalf (shapeCast S128x128 x2 shapeCasts_S128x128_S128x128) (vHalf (shapeCast S128x128 x1 shapeCasts_S128x128_S128x128)
  (vHalf (shapeCast S128x128 x2 shapeCasts_S128x128_S128x128) (vHalf (shapeCast S128x128 x1 shapeCasts_S128x128_S128x128)
  (vHalf (shapeCast S128x128 x2 shapeCasts_S128x128_S128x128) (vHalf (shapeCast S128x128 x1 shapeCasts_S128x128_S128x128)
  (vHalf (shapeCast S128x128 x2 shapeCasts_S128x128_S128x128) (vHalf (shapeCast S128x128 x1 shapeCasts_S128x128_S128x128)
    (exp (shapeCast S4096x128 x0 shapeCasts_S4096x128_S4096x128)))))))))))

/-- The printed payloads, composed, are those ten steps. -/
theorem pay_eq (x0 : Vec Ideal S4096x128 .f32) (x1 x2 : Vec Ideal S128x128 .bf16) :
    k0_pay1 (k0_pay2 x1) (k0_pay3 x2) (k0_pay4 x1 x2 x0) (k0_pay5 x1 x2 x0) (k0_pay6 x1 x2 x0) = body x0 x1 x2 := rfl

theorem hz : (![0, 0] : Fin 2 → Nat) = fun _ => 0 := funext fun a => by fin_cases a <;> rfl

/-- Row r of what the body leaves in the output block is five rounds on row r of the input block. -/
theorem out_row (x0 : Vec Ideal S4096x128 .f32) (x1 x2 : Vec Ideal S128x128 .bf16) (r : Fin 4096) :
    rowOf (out0_3 x0 x1 x2) r = laneSinkG (tbl x1) (tbl x2) (rowOf x0 r) := by
  unfold out0_3
  rw [View.canon_unit_zero hz]
  simp only [View.ld_unit_zero (S := S128x128) hz, View.ld_unit_zero (S := S4096x128) hz]
  rw [pay_eq]
  unfold body
  simp only [shapeCast_self, vHalf_row]
  rfl

end Cert.KernelIdeal.Payload

end
-- ==== Proof.KernelBlocks.lean ====
/-
  From what each grid point writes back to the whole array the call leaves, and through the reshape after it.

  The grid has 256 points; point t loads rows 4096 t … 4096 t + 4095 of the flat [1048576, 128] input and the two
  whole 128 x 128 matrices, and writes back the same rows of the output. Row by row the body is five rounds on the
  lanes (the payload module), so the array the call leaves is `K`: at (row, lane) five rounds on that row of the flat
  input. The output blocks tile the array: row r belongs to point r / 4096. The one operation after the call
  reshapes that array to [2048, 1024, 8, 8].
-/
import proofs.«125687_j84765474554153_2_alg».proof.Proof.Gen.KernelIdeal.Frame
import proofs.«125687_j84765474554153_2_alg».proof.Proof.KernelPayload
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Sinkhorn Cert.KernelIdeal.Payload
open Idealize.ShloMosaic.Pipeline (Dat)

variable (m : (ℓ : Loc nD τ sig) → Buf (Elt Ideal) ℓ) (ρ : Dev nD → PrngReg)

/-- The flat output as one function of the flat input and the two matrices: at (row, lane), five rounds on the row. -/
def K (X : S1048576x128.Idx → EReal) (B1 B2 : S128x128.Idx → EReal) : S1048576x128.Idx → EReal :=
  fun i => laneSinkG (tbl B1) (tbl B2) (fun l => X (ix2 (i 0) l)) (i 1)

/-- An array of rows, read at an index, is its row read at the lane. -/
theorem rowOf_apply (M : S4096x128.Idx → EReal) (y : S4096x128.Idx) : M y = rowOf M (y 0) (y 1) :=
  congrArg M (eq_ix2 y)

/-- What the body stores, at any index of the block. -/
theorem out_at (x0 : Vec Ideal S4096x128 .f32) (x1 x2 : Vec Ideal S128x128 .bf16) (y : S4096x128.Idx) :
    out0_3 x0 x1 x2 y = laneSinkG (tbl x1) (tbl x2) (rowOf x0 (y 0)) (y 1) := by
  exact (rowOf_apply (out0_3 x0 x1 x2) y).trans (congrFun (out_row x0 x1 x2 (y 0)) (y 1))

/-- The printed index maps over the grid: the input and output blocks move with the point along the rows, the two
    matrices stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 2000000 in
/-- What point t writes back is block t of `K` of the arrays as the call finds them. -/
theorem flushed_eq (c : Dev nD) (t : Fin cfg0.N) :
    (dats m 0 c).flushed 3 t
      = ((cfg0.win 3).blk t).view.read (Elt Ideal) (K (V m c main_v19) (V m c main_v7) (V m c main_v18)) := by
  show (cfg0.win 3).cut (grid0.coords t) ((dats m 0 c).after 3 t) = _
  rw [after0_3]
  obtain ⟨e00, e01, e10, e11, e20, e21, e30, e31⟩ := idx_facts t
  funext j
  show out0_3 (iblk m c 0 t) (iblk m c 1 t) (iblk m c 2 t) j
    = K (V m c main_v19) (V m c main_v7) (V m c main_v18) (((cfg0.win 3).blk t).view.emb j)
  refine (out_at (iblk m c 0 t) (iblk m c 1 t) (iblk m c 2 t) j).trans ?_
  unfold K
  have h1 : tbl (iblk m c 1 t) = tbl (V m c main_v7) := by
    funext k l
    show V m c main_v7 (((cfg0.win 1).blk t).view.emb (ix2 k l)) = V m c main_v7 (ix2 k l)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * l.val = l.val; omega
  have h2 : tbl (iblk m c 2 t) = tbl (V m c main_v18) := by
    funext k l
    show V m c main_v18 (((cfg0.win 2).blk t).view.emb (ix2 k l)) = V m c main_v18 (ix2 k l)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * l.val = l.val; omega
  have h0 : rowOf (iblk m c 0 t) (j 0) = fun l => V m c main_v19 (ix2 ((((cfg0.win 3).blk t).view.emb j) 0) l) := by
    funext l
    show V m c main_v19 (((cfg0.win 0).blk t).view.emb (ix2 (j 0) l)) = V m c main_v19 (ix2 ((((cfg0.win 3).blk t).view.emb j) 0) l)
    refine congrArg _ (funext fun a => Fin.ext ?_)
    match a with
    | ⟨0, _⟩ =>
      show win0_0.index t (0 : Fin 2) * 4096 + 1 * (j 0).val = win0_3.index t (0 : Fin 2) * 4096 + 1 * (j 0).val
      omega
    | ⟨1, _⟩ => show win0_0.index t (1 : Fin 2) * 128 + 1 * l.val = l.val; omega
  have h3 : (((cfg0.win 3).blk t).view.emb j) 1 = j 1 := by
    apply Fin.ext
    show win0_3.index t (1 : Fin 2) * 128 + 1 * (j 1).val = (j 1).val
    omega
  rw [h1, h2, h0, h3]

/-- An index of the array is in point t's block iff each coordinate is in the block's range on its axis. -/
theorem mem_blk (t : Fin cfg0.N) (i : S1048576x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v20).slice (win0_3.rect t)).set ↔ _
  rw [View.set_slice_whole, Rect.mem_set_unit]
  exact Iff.rfl

/-- Every row of the array is in the block of the point numbered by the row's quotient by 4096. -/
theorem cover (i : S1048576x128.Idx) :
    ∃ t : Fin cfg0.N, (cfg0.win 3).flush t = true ∧ i ∈ ((cfg0.win 3).blk t).view.set := by
  have hi0 : (i 0).val < 1048576 := (i 0).isLt
  have hi1 : (i 1).val < 128 := (i 1).isLt
  have hN : (i 0).val / 4096 < cfg0.N := by show _ < grid0.N; rw [N_0]; omega
  refine ⟨⟨(i 0).val / 4096, hN⟩, flush0_3 _, ?_⟩
  obtain ⟨-, -, -, -, -, -, e30, e31⟩ := idx_facts ⟨(i 0).val / 4096, hN⟩
  have e30' : win0_3.index ⟨(i 0).val / 4096, hN⟩ (0 : Fin 2) = (i 0).val / 4096 := e30
  rw [mem_blk]
  intro a
  match a with
  | ⟨0, _⟩ =>
    show win0_3.index ⟨(i 0).val / 4096, hN⟩ (0 : Fin 2) * 4096 ≤ (i 0).val
      ∧ (i 0).val < win0_3.index ⟨(i 0).val / 4096, hN⟩ (0 : Fin 2) * 4096 + 4096
    omega
  | ⟨1, _⟩ =>
    show win0_3.index ⟨(i 0).val / 4096, hN⟩ (1 : Fin 2) * 128 ≤ (i 1).val
      ∧ (i 1).val < win0_3.index ⟨(i 0).val / 4096, hN⟩ (1 : Fin 2) * 128 + 128
    omega

/-- The array the call leaves. -/
theorem final (c : Dev nD) :
    (dats m 0 c).arrAt 3 cfg0.N = K (V m c main_v19) (V m c main_v7) (V m c main_v18) :=
  (dats m 0 c).arrAt_eq_of_cover 3 (K (V m c main_v19) (V m c main_v7) (V m c main_v18))
    (fun t _ => flushed_eq m c t) cover

/-- The reshape after the call reads the array the call left. -/
theorem tail_eq (c : Dev nD) :
    Pipeline.afterTail₀ cfgs (dats m) 0 (V0 m) [hostOps1] c main_v21
      = shapeCast S2048x1024x8x8 (K (V m c main_v19) (V m c main_v7) (V m c main_v18)) shapeCasts_S1048576x128_S2048x1024x8x8 := by
  unfold Pipeline.afterTail₀
  show StableHlo.after hostOps1 _ (Proc.devRef .tc main_v21) = _
  after_results
  rw [show Pipeline.withArrays (cfgs 0).spec c (V0 m c) (fun w => (dats m 0 c).arrAt w (cfgs 0).N) (Proc.devRef .tc main_v20)
      = (dats m 0 c).arrAt 3 cfg0.N from Pipeline.withArrays_arr spec0 launch0.win.arr_inj c _ _ 3, final]
  rfl

/-- The kernel's run at the ideal values: the result array at the reshape of `K`, the argument unchanged. -/
theorem run : θ_run defs (onTc (τ := τ) (main (F := Ideal))) ⟨m, fun _ => 0, ρ⟩ fun r => ∀ c : Dev nD,
      r.2.mem ((c : Thread nD τ).loc main_v21)
        = shapeCast S2048x1024x8x8 (K (V m c main_v19) (V m c main_v7) (V m c main_v18)) shapeCasts_S1048576x128_S2048x1024x8x8
      ∧ r.2.mem ((c : Thread nD τ).loc main_arg0) = m ((c : Thread nD τ).loc main_arg0) :=
  (θ_run defs _ _).mono (fun r h c =>
      ⟨((h c).2 main_v21 (Pipeline.mem_restRefs_of main_v21 (by decide) (by decide))).trans (tail_eq m c),
       ((h c).2 main_arg0 (Pipeline.mem_restRefs_of main_arg0 (by decide) (by decide))).trans (W_main_arg0 m (dats m) c)⟩)
    (run_main m ρ)

end Cert.KernelIdeal.Blocks

end
-- ==== Proof.Lanes.lean ====
/-
  The kernel's round on 128 lanes is the round on each of the row's two 8 x 8 matrices.

  A sum over the 128 lanes is the sum over (matrix number, row, column). Against column `lane h i j` of the 0/1
  matrix `BrowT` only the lanes of matrix h, row i survive, each with factor 1, so the product is the sum of that
  row; against `BcolT` the lanes of matrix h, column j. The second product the kernel adds has `M - M` in place of
  `M`; on a matrix of reals that is a sum of zeros. The other matrix of the row plays no part: its lanes meet the
  factor 0, and on the extended reals anything times 0 is 0.
-/
import proofs.«125687_j84765474554153_2_alg».proof.Proof.Spec

noncomputable section

namespace Cert.Sinkhorn

open Idealize.ShloMosaic Cert.LibRealEntries

/-- The lanes of a row as (matrix number, row, column). -/
def laneEquiv : Fin 2 × Fin 8 × Fin 8 ≃ Fin 128 where
  toFun p := lane p.1 p.2.1 p.2.2
  invFun k := (⟨k.val / 64, by omega⟩, ⟨k.val / 8 % 8, by omega⟩, ⟨k.val % 8, by omega⟩)
  left_inv := by
    rintro ⟨h, i, j⟩
    have := h.isLt; have := i.isLt; have := j.isLt
    refine Prod.ext (Fin.ext ?_) (Prod.ext (Fin.ext ?_) (Fin.ext ?_)) <;> simp only [lane] <;> omega
  right_inv := by
    intro k
    have := k.isLt
    refine Fin.ext ?_
    simp only [lane]
    omega

/-- A sum over the lanes is the sum over matrix number, row and column. -/
theorem sum_lanes (f : Fin 128 → EReal) : ∑ k : Fin 128, f k = ∑ h : Fin 2, ∑ i : Fin 8, ∑ j : Fin 8, f (lane h i j) := by
  rw [← Equiv.sum_comp laneEquiv f, Fintype.sum_prod_type]
  refine Finset.sum_congr rfl fun h _ => ?_
  rw [Fintype.sum_prod_type]
  rfl

theorem BrowT_lane (h' h : Fin 2) (i' i j' j : Fin 8) :
    BrowT (lane h' i' j') (lane h i j) = if h' = h ∧ i' = i then 1 else 0 := by
  have := h'.isLt; have := h.isLt; have := i'.isLt; have := i.isLt; have := j'.isLt; have := j.isLt
  unfold BrowT lane
  by_cases hc : h' = h ∧ i' = i
  · obtain ⟨rfl, rfl⟩ := hc
    rw [if_pos (by simp only; omega), if_pos ⟨rfl, rfl⟩]
  · rw [if_neg hc, if_neg]
    simp only
    intro hq
    apply hc
    constructor
    · exact Fin.ext (by omega)
    · exact Fin.ext (by omega)

theorem BcolT_lane (h' h : Fin 2) (i' i j' j : Fin 8) :
    BcolT (lane h' i' j') (lane h i j) = if h' = h ∧ j' = j then 1 else 0 := by
  have := h'.isLt; have := h.isLt; have := i'.isLt; have := i.isLt; have := j'.isLt; have := j.isLt
  unfold BcolT lane
  by_cases hc : h' = h ∧ j' = j
  · obtain ⟨rfl, rfl⟩ := hc
    rw [if_pos (by simp only; omega), if_pos ⟨rfl, rfl⟩]
  · rw [if_neg hc, if_neg]
    simp only
    intro hq
    apply hc
    constructor
    · exact Fin.ext (by omega)
    · exact Fin.ext (by omega)

/-- The product of a row of lanes with a column of `BrowT` is the sum of one matrix row. -/
theorem sum_mul_BrowT (f : Fin 128 → EReal) (h : Fin 2) (i j : Fin 8) :
    ∑ k : Fin 128, f k * BrowT k (lane h i j) = ∑ j' : Fin 8, f (lane h i j') := by
  rw [sum_lanes]
  simp only [BrowT_lane]
  rw [Finset.sum_eq_single h]
  · rw [Finset.sum_eq_single i]
    · exact Finset.sum_congr rfl fun j' _ => by rw [if_pos ⟨rfl, rfl⟩, mul_one]
    · intro i' _ hi
      exact Finset.sum_eq_zero fun j' _ => by rw [if_neg (fun hc => hi hc.2), mul_zero]
    · intro hn; exact absurd (Finset.mem_univ i) hn
  · intro h' _ hh
    exact Finset.sum_eq_zero fun i' _ => Finset.sum_eq_zero fun j' _ => by rw [if_neg (fun hc => hh hc.1), mul_zero]
  · intro hn; exact absurd (Finset.mem_univ h) hn

/-- The product of a row of lanes with a column of `BcolT` is the sum of one matrix column. -/
theorem sum_mul_BcolT (f : Fin 128 → EReal) (h : Fin 2) (i j : Fin 8) :
    ∑ k : Fin 128, f k * BcolT k (lane h i j) = ∑ i' : Fin 8, f (lane h i' j) := by
  rw [sum_lanes]
  simp only [BcolT_lane]
  rw [Finset.sum_eq_single h]
  · refine Finset.sum_congr rfl fun i' _ => ?_
    rw [Finset.sum_eq_single j]
    · rw [if_pos ⟨rfl, rfl⟩, mul_one]
    · intro j' _ hj
      rw [if_neg (fun hc => hj hc.2), mul_zero]
    · intro hn; exact absurd (Finset.mem_univ j) hn
  · intro h' _ hh
    exact Finset.sum_eq_zero fun i' _ => Finset.sum_eq_zero fun j' _ => by rw [if_neg (fun hc => hh hc.1), mul_zero]
  · intro hn; exact absurd (Finset.mem_univ h) hn

theorem PosReal.real {A : Mat} (hA : PosReal A) (i j : Fin 8) : ∃ r : ℝ, A i j = (r : EReal) :=
  let ⟨r, _, hr⟩ := hA i j; ⟨r, hr⟩

/-- The kernel's row normalisation on the lanes is the matrix's, on a matrix of positive reals. -/
theorem laneHalf_row (M : Fin 128 → EReal) (h : Fin 2) (hM : PosReal (laneMat M h)) :
    laneMat (laneHalf BrowT M) h = rowN (laneMat M h) := by
  funext i j
  show Ideal.div (M (lane h i j)) ((∑ k : Fin 128, M k * BrowT k (lane h i j)) + ∑ k : Fin 128, (M k - M k) * BrowT k (lane h i j))
    = Ideal.div (M (lane h i j)) (∑ j' : Fin 8, M (lane h i j'))
  have hz : ∑ j' : Fin 8, (M (lane h i j') - M (lane h i j')) = 0 :=
    Finset.sum_eq_zero fun j' _ => sub_self_of_real (x := M (lane h i j')) (hM.real i j')
  rw [sum_mul_BrowT M, sum_mul_BrowT (fun k => M k - M k), hz, add_zero]

/-- The kernel's column normalisation on the lanes is the matrix's, on a matrix of positive reals. -/
theorem laneHalf_col (M : Fin 128 → EReal) (h : Fin 2) (hM : PosReal (laneMat M h)) :
    laneMat (laneHalf BcolT M) h = colN (laneMat M h) := by
  funext i j
  show Ideal.div (M (lane h i j)) ((∑ k : Fin 128, M k * BcolT k (lane h i j)) + ∑ k : Fin 128, (M k - M k) * BcolT k (lane h i j))
    = Ideal.div (M (lane h i j)) (∑ i' : Fin 8, M (lane h i' j))
  have hz : ∑ i' : Fin 8, (M (lane h i' j) - M (lane h i' j)) = 0 :=
    Finset.sum_eq_zero fun i' _ => sub_self_of_real (x := M (lane h i' j)) (hM.real i' j)
  rw [sum_mul_BcolT M, sum_mul_BcolT (fun k => M k - M k), hz, add_zero]

/-- One round on the lanes is one round on the matrix, and keeps it positive. -/
theorem laneStep_eq (N : Fin 128 → EReal) (h : Fin 2) (A : Mat) (hA : laneMat N h = A) (hp : PosReal A) :
    laneMat (laneStep N) h = step A ∧ PosReal (step A) := by
  subst hA
  refine ⟨?_, step_pos hp⟩
  unfold laneStep step
  rw [laneHalf_col _ h (by rw [laneHalf_row N h hp]; exact rowN_pos hp), laneHalf_row N h hp]

/-- Five rounds on the lanes, from a row whose matrix number h is real, are `sink` of that matrix. -/
theorem laneSink_eq (M : Fin 128 → EReal) (h : Fin 2) (hM : ∀ i j, ∃ r : ℝ, M (lane h i j) = (r : EReal)) :
    laneMat (laneSink M) h = sink (laneMat M h) := by
  have h0 : laneMat (fun l => Ideal.exp (M l)) h = expM (laneMat M h) := rfl
  have p0 : PosReal (expM (laneMat M h)) := expM_pos _ hM
  obtain ⟨e1, p1⟩ := laneStep_eq _ h _ h0 p0
  obtain ⟨e2, p2⟩ := laneStep_eq _ h _ e1 p1
  obtain ⟨e3, p3⟩ := laneStep_eq _ h _ e2 p2
  obtain ⟨e4, p4⟩ := laneStep_eq _ h _ e3 p3
  obtain ⟨e5, _⟩ := laneStep_eq _ h _ e4 p4
  exact e5

end Cert.Sinkhorn

end
-- ==== Proof.KernelValue.lean ====
/-
  The flat output, reshaped back, is the specification's array.

  Entry (i, j) of matrix (a, b) has row-major position ((1024 a + b) 8 + i) 8 + j in the [2048, 1024, 8, 8] array,
  which in the flat [1048576, 128] array is row (1024 a + b) / 2, lane ((1024 a + b) mod 2) 64 + 8 i + j: the row
  holds matrices number 1024 a + b rounded down to even and the next one, and the lane is entry (i, j) of the one
  with the right parity. Five rounds on that row of lanes are, at such a lane, five rounds on the matrix
  (`laneSink_eq`), because the matrix's entries are real numbers.
-/
import proofs.«125687_j84765474554153_2_alg».proof.Proof.KernelBlocks
import proofs.«125687_j84765474554153_2_alg».proof.Proof.Lanes
import Idealize.ShloMosaic.Lib.Pipeline.Value

noncomputable section

namespace Cert.KernelIdeal.Bridge

open Cert.KernelIdeal Cert.KernelIdeal.Gen Idealize.ShloMosaic Idealize.ShloMosaic.ValueIdx
open Cert.Sinkhorn Cert.KernelIdeal.Payload Cert.KernelIdeal.Blocks

/-- The flat input at (row of matrix (a, b), lane of entry (i, j)) is the input at (a, b, i, j). -/
theorem flat_at (x : S2048x1024x8x8.Idx → EReal) (a : Fin 2048) (b : Fin 1024) (i j : Fin 8)
    (R : Fin 1048576) (h : Fin 2) (hR : R.val = (a.val * 1024 + b.val) / 2) (hh : h.val = (a.val * 1024 + b.val) % 2) :
    shapeCast S1048576x128 x shapeCasts_S2048x1024x8x8_S1048576x128 (ix2 R (lane h i j)) = x (ix4 a b i j) := by
  have ha := a.isLt; have hb := b.isLt; have hi := i.isLt; have hj := j.isLt
  refine shapeCast_apply x _ (ix2 R (lane h i j)) (ix4 a b i j) ?_
  rw [Shape.rowMajor_val_four, Shape.rowMajor_val_two]
  show ((a.val * 1024 + b.val) * 8 + i.val) * 8 + j.val = R.val * 128 + (h.val * 64 + i.val * 8 + j.val)
  omega

/-- The reshape of the flat output is `G` of the input, when every entry of the input is a real number. -/
theorem kernel_value (x : S2048x1024x8x8.Idx → EReal) (hx : ∀ i, ∃ r : ℝ, x i = (r : EReal)) :
    shapeCast S2048x1024x8x8 (K (shapeCast S1048576x128 x shapeCasts_S2048x1024x8x8_S1048576x128)
        (fun y => BrowT (y 0) (y 1)) (fun y => BcolT (y 0) (y 1))) shapeCasts_S1048576x128_S2048x1024x8x8
      = G x := by
  funext o
  obtain ⟨a, b, i, j, rfl⟩ : ∃ (a : Fin 2048) (b : Fin 1024) (i j : Fin 8), o = ix4 a b i j :=
    ⟨o 0, o 1, o 2, o 3, eq_ix4 o⟩
  have ha := a.isLt; have hb := b.isLt; have hi := i.isLt; have hj := j.isLt
  obtain ⟨R, hR⟩ : ∃ R : Fin 1048576, R.val = (a.val * 1024 + b.val) / 2 := ⟨⟨(a.val * 1024 + b.val) / 2, by omega⟩, rfl⟩
  obtain ⟨h, hh⟩ : ∃ h : Fin 2, h.val = (a.val * 1024 + b.val) % 2 := ⟨⟨(a.val * 1024 + b.val) % 2, by omega⟩, rfl⟩
  refine (shapeCast_apply _ _ (ix4 a b i j) (ix2 R (lane h i j)) ?_).trans ?_
  · rw [Shape.rowMajor_val_four, Shape.rowMajor_val_two]
    show R.val * 128 + (h.val * 64 + i.val * 8 + j.val) = ((a.val * 1024 + b.val) * 8 + i.val) * 8 + j.val
    omega
  · show laneSinkG (tbl fun y => BrowT (y 0) (y 1)) (tbl fun y => BcolT (y 0) (y 1))
        (fun l => shapeCast S1048576x128 x shapeCasts_S2048x1024x8x8_S1048576x128 (ix2 R l)) (lane h i j)
      = sink (fun i' j' => x (ix4 a b i' j')) i j
    have hB1 : tbl (fun y : S128x128.Idx => BrowT (y 0) (y 1)) = BrowT := rfl
    have hB2 : tbl (fun y : S128x128.Idx => BcolT (y 0) (y 1)) = BcolT := rfl
    rw [hB1, hB2, laneSinkG_tables]
    have hmat : laneMat (fun l => shapeCast S1048576x128 x shapeCasts_S2048x1024x8x8_S1048576x128 (ix2 R l)) h
        = fun i' j' => x (ix4 a b i' j') := by
      funext i' j'
      exact flat_at x a b i' j' R h hR hh
    have hreal : ∀ i' j', ∃ r : ℝ,
        (fun l => shapeCast S1048576x128 x shapeCasts_S2048x1024x8x8_S1048576x128 (ix2 R l)) (lane h i' j') = (r : EReal) := by
      intro i' j'
      obtain ⟨r, hr⟩ := hx (ix4 a b i' j')
      exact ⟨r, (flat_at x a b i' j' R h hR hh).trans hr⟩
    have key := congrFun (congrFun (laneSink_eq
      (fun l => shapeCast S1048576x128 x shapeCasts_S2048x1024x8x8_S1048576x128 (ix2 R l)) h hreal) i) j
    rw [hmat] at key
    exact key

end Cert.KernelIdeal.Bridge

end
-- ==== Proof.ReferenceRounds.lean ====
/-
  The reference's result, read matrix by matrix.

  The reference reshapes the input to one list of 2097152 matrices of 8 x 8, exponentiates entrywise, and five times
  divides every row by its sum and every column by its sum; each sum is a reduction over one axis from zero, spread
  back over that axis. Read at one matrix, a row normalisation of the list is the row normalisation of the matrix,
  and a column normalisation likewise; the two reshapes pair matrix (a0, a1) with number a0 * 1024 + a1 of the list.
  `result_eq`: the reference's composed term is `Cert.Sinkhorn.G` of its argument.
-/
import proofs.«125687_j84765474554153_2_alg».proof.Proof.Gen.ReferenceIdeal.Run
import proofs.«125687_j84765474554153_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.Sinkhorn

/-- The array of 2097152 matrices, 8 x 8 each. -/
abbrev Arr := S2097152x8x8.Idx → EReal

/-- The sum of every row from zero, spread back over the row. -/
def rowDen (A : Arr) : Arr :=
  broadcastInDim S2097152x8x8 ![0, 1, 2] bcast_S2097152x8x1_S2097152x8x8_0_1_2 (broadcastInDim S2097152x8x1 ![0, 1] bcast_S2097152x8_S2097152x8x1_0_1 (Host.reduceAdd (F := Ideal) (φ := .f32) A (constant S_ .f32 0x00000000#32) reducesTo_S2097152x8x8_S2097152x8_d2 h_S_))

/-- The sum of every column from zero, spread back over the column. -/
def colDen (A : Arr) : Arr :=
  broadcastInDim S2097152x8x8 ![0, 1, 2] bcast_S2097152x1x8_S2097152x8x8_0_1_2 (broadcastInDim S2097152x1x8 ![0, 2] bcast_S2097152x8_S2097152x1x8_0_2 (Host.reduceAdd (F := Ideal) (φ := .f32) A (constant S_ .f32 0x00000000#32) reducesTo_S2097152x8x8_S2097152x8_d1 h_S_))

/-- Every row of every matrix divided by its sum, as the host operations form it. -/
def hostRowN (A : Arr) : Arr := Host.divf (F := Ideal) (φ := .f32) A (rowDen A)

/-- Every column of every matrix divided by its sum, as the host operations form it. -/
def hostColN (A : Arr) : Arr := Host.divf (F := Ideal) (φ := .f32) A (colDen A)

/-- Matrix number b of the array. -/
def matOf (A : Arr) (b : Fin 2097152) : Mat := fun i j => A (ix3 b i j)

/-- Dropping the last axis of the array's shape leaves (matrix, row); dropping the middle axis leaves (matrix, column). -/
theorem red2 : Shape.Reduces S2097152x8x8 [2] S2097152x8 := by decide
theorem red1 : Shape.Reduces S2097152x8x8 [1] S2097152x8 := by decide

/-- The sum over the last axis from zero, at (b, i): the sum of row i of matrix b. -/
theorem rowSum_apply (A : Arr) (b : Fin 2097152) (i : Fin 8) :
    (Host.reduceAdd (F := Ideal) (φ := .f32) A (constant S_ .f32 0x00000000#32) reducesTo_S2097152x8x8_S2097152x8_d2 h_S_ : S2097152x8.Idx → EReal) (ix2 b i)
      = ∑ j' : Fin 8, A (ix3 b i j') := by
  show Ideal.hostReduceAdd reducesTo_S2097152x8x8_S2097152x8_d2 A (Ideal.ofBits .f32 0x00000000#32) (ix2 b i) = _
  rw [Ideal.hostReduceAdd_single reducesTo_S2097152x8x8_S2097152x8_d2 red2, Ideal.ofBits_zero_f32, zero_add]
  refine Finset.sum_congr rfl fun k _ => congrArg A ?_
  funext a
  match a with
  | ⟨0, _⟩ => exact Fin.ext rfl
  | ⟨1, _⟩ => exact Fin.ext rfl
  | ⟨2, _⟩ => exact Fin.ext rfl

/-- The sum over the middle axis from zero, at (b, j): the sum of column j of matrix b. -/
theorem colSum_apply (A : Arr) (b : Fin 2097152) (j : Fin 8) :
    (Host.reduceAdd (F := Ideal) (φ := .f32) A (constant S_ .f32 0x00000000#32) reducesTo_S2097152x8x8_S2097152x8_d1 h_S_ : S2097152x8.Idx → EReal) (ix2 b j)
      = ∑ i' : Fin 8, A (ix3 b i' j) := by
  show Ideal.hostReduceAdd reducesTo_S2097152x8x8_S2097152x8_d1 A (Ideal.ofBits .f32 0x00000000#32) (ix2 b j) = _
  rw [Ideal.hostReduceAdd_single reducesTo_S2097152x8x8_S2097152x8_d1 red1, Ideal.ofBits_zero_f32, zero_add]
  refine Finset.sum_congr rfl fun k _ => congrArg A ?_
  funext a
  match a with
  | ⟨0, _⟩ => exact Fin.ext rfl
  | ⟨1, _⟩ => exact Fin.ext rfl
  | ⟨2, _⟩ => exact Fin.ext rfl

/-- The entrywise quotient of two arrays, read at one entry of one matrix. -/
theorem matOf_divf (A B : Arr) (b : Fin 2097152) (i j : Fin 8) :
    matOf (Host.divf (F := Ideal) (φ := .f32) A B) b i j = Ideal.div (A (ix3 b i j)) (B (ix3 b i j)) := rfl

/-- A function of (b, i) spread over the last axis, read at (b, i, j). -/
theorem spreadRow_apply (s : S2097152x8.Idx → EReal) (b : Fin 2097152) (i j : Fin 8) :
    (broadcastInDim S2097152x8x8 ![0, 1, 2] bcast_S2097152x8x1_S2097152x8x8_0_1_2 (broadcastInDim S2097152x8x1 ![0, 1] bcast_S2097152x8_S2097152x8x1_0_1 s) : Arr) (ix3 b i j)
      = s (ix2 b i) := by
  refine (broadcastInDim_apply _ _ _ (ix3 b i j) (ix3 b i (0 : Fin 1)) fun a => ?_).trans ?_
  · match a with
    | ⟨0, _⟩ => rfl
    | ⟨1, _⟩ => rfl
    | ⟨2, _⟩ => rfl
  refine broadcastInDim_apply _ _ _ (ix3 b i (0 : Fin 1)) (ix2 b i) fun a => ?_
  match a with
  | ⟨0, _⟩ => rfl
  | ⟨1, _⟩ => rfl

/-- A function of (b, j) spread over the middle axis, read at (b, i, j). -/
theorem spreadCol_apply (s : S2097152x8.Idx → EReal) (b : Fin 2097152) (i j : Fin 8) :
    (broadcastInDim S2097152x8x8 ![0, 1, 2] bcast_S2097152x1x8_S2097152x8x8_0_1_2 (broadcastInDim S2097152x1x8 ![0, 2] bcast_S2097152x8_S2097152x1x8_0_2 s) : Arr) (ix3 b i j)
      = s (ix2 b j) := by
  refine (broadcastInDim_apply _ _ _ (ix3 b i j) (ix3 b (0 : Fin 1) j) fun a => ?_).trans ?_
  · match a with
    | ⟨0, _⟩ => rfl
    | ⟨1, _⟩ => rfl
    | ⟨2, _⟩ => rfl
  refine broadcastInDim_apply _ _ _ (ix3 b (0 : Fin 1) j) (ix2 b j) fun a => ?_
  match a with
  | ⟨0, _⟩ => rfl
  | ⟨1, _⟩ => rfl

/-- The row divisor of the array at entry (i, j) of matrix b: the sum of row i of that matrix. -/
theorem rowDen_apply (A : Arr) (b : Fin 2097152) (i j : Fin 8) : rowDen A (ix3 b i j) = ∑ j' : Fin 8, A (ix3 b i j') :=
  (spreadRow_apply _ b i j).trans (rowSum_apply A b i)

/-- The column divisor of the array at entry (i, j) of matrix b: the sum of column j of that matrix. -/
theorem colDen_apply (A : Arr) (b : Fin 2097152) (i j : Fin 8) : colDen A (ix3 b i j) = ∑ i' : Fin 8, A (ix3 b i' j) :=
  (spreadCol_apply _ b i j).trans (colSum_apply A b j)

/-- Row normalisation of the array, read at one matrix, is the row normalisation of that matrix. -/
theorem matOf_hostRowN (A : Arr) (b : Fin 2097152) : matOf (hostRowN A) b = rowN (matOf A b) := by
  funext i j
  exact (matOf_divf A (rowDen A) b i j).trans (congrArg (Ideal.div (A (ix3 b i j))) (rowDen_apply A b i j))

/-- Column normalisation of the array, read at one matrix, is the column normalisation of that matrix. -/
theorem matOf_hostColN (A : Arr) (b : Fin 2097152) : matOf (hostColN A) b = colN (matOf A b) := by
  funext i j
  exact (matOf_divf A (colDen A) b i j).trans (congrArg (Ideal.div (A (ix3 b i j))) (colDen_apply A b i j))

/-- One round on the array, read at one matrix, is one round on that matrix. -/
theorem matOf_round (A : Arr) (b : Fin 2097152) : matOf (hostColN (hostRowN A)) b = step (matOf A b) :=
  (matOf_hostColN (hostRowN A) b).trans (congrArg colN (matOf_hostRowN A b))

/-- The number of matrix (a0, a1) in the list of all matrices. -/
def matIx (a0 : Fin 2048) (a1 : Fin 1024) : Fin 2097152 :=
  ⟨a0.val * 1024 + a1.val, by have := a0.isLt; have := a1.isLt; omega⟩

/-- The input reshaped to one list of matrices, read at entry (i, j) of matrix (a0, a1). -/
theorem reshapeIn_apply (x : S2048x1024x8x8.Idx → EReal) (a0 : Fin 2048) (a1 : Fin 1024) (i j : Fin 8) :
    (shapeCast S2097152x8x8 x shapeCasts_S2048x1024x8x8_S2097152x8x8 : Arr) (ix3 (matIx a0 a1) i j) = x (ix4 a0 a1 i j) := by
  refine shapeCast_apply x _ _ (ix4 a0 a1 i j) ?_
  rw [Shape.rowMajor_val_four, Shape.rowMajor_val_three]
  rfl

/-- A list of matrices reshaped back, read at entry (i, j) of matrix (a0, a1). -/
theorem reshapeOut_apply (A : Arr) (a0 : Fin 2048) (a1 : Fin 1024) (i j : Fin 8) :
    (shapeCast S2048x1024x8x8 A shapeCasts_S2097152x8x8_S2048x1024x8x8 : S2048x1024x8x8.Idx → EReal) (ix4 a0 a1 i j)
      = A (ix3 (matIx a0 a1) i j) := by
  refine shapeCast_apply A _ _ (ix3 (matIx a0 a1) i j) ?_
  rw [Shape.rowMajor_val_four, Shape.rowMajor_val_three]
  rfl

/-- The exponentiated input as one list of matrices. -/
def expIn (x : S2048x1024x8x8.Idx → EReal) : Arr :=
  Host.exp (F := Ideal) (φ := .f32) (shapeCast S2097152x8x8 x shapeCasts_S2048x1024x8x8_S2097152x8x8)

/-- The entrywise exponential of an array, read at one entry of one matrix. -/
theorem matOf_exp (X : Arr) (b : Fin 2097152) (i j : Fin 8) :
    matOf (Host.exp (F := Ideal) (φ := .f32) X) b i j = Ideal.exp (X (ix3 b i j)) := rfl

/-- Matrix (a0, a1) of the exponentiated input is the entrywise exponential of matrix (a0, a1) of the input. -/
theorem matOf_expIn (x : S2048x1024x8x8.Idx → EReal) (a0 : Fin 2048) (a1 : Fin 1024) :
    matOf (expIn x) (matIx a0 a1) = expM (fun i j => x (ix4 a0 a1 i j)) := by
  funext i j
  exact (matOf_exp _ (matIx a0 a1) i j).trans (congrArg Ideal.exp (reshapeIn_apply x a0 a1 i j))

/-! ## The reference's named stages -/

section Stages
variable (V0 : Valuation τ sig (Elt Ideal))

/-- Each named stage is the exponentiated input or a normalisation of the stage before it, by definition. -/
theorem res1_eq : (res_main_v1 V0 : Arr) = expIn (V0 (Proc.devRef .tc main_arg0)) := rfl
theorem res5_eq : (res_main_v5 V0 : Arr) = hostRowN (res_main_v1 V0) := rfl
theorem res9_eq : (res_main_v9 V0 : Arr) = hostColN (res_main_v5 V0) := rfl
theorem res13_eq : (res_main_v13 V0 : Arr) = hostRowN (res_main_v9 V0) := rfl
theorem res17_eq : (res_main_v17 V0 : Arr) = hostColN (res_main_v13 V0) := rfl
theorem res21_eq : (res_main_v21 V0 : Arr) = hostRowN (res_main_v17 V0) := rfl
theorem res25_eq : (res_main_v25 V0 : Arr) = hostColN (res_main_v21 V0) := rfl
theorem res29_eq : (res_main_v29 V0 : Arr) = hostRowN (res_main_v25 V0) := rfl
theorem res33_eq : (res_main_v33 V0 : Arr) = hostColN (res_main_v29 V0) := rfl
theorem res37_eq : (res_main_v37 V0 : Arr) = hostRowN (res_main_v33 V0) := rfl

end Stages

section Result
variable (V0 : Valuation τ sig (Elt Ideal))

/-- Each pair of stages is one round on every matrix. -/
theorem mat9 (b : Fin 2097152) : matOf (res_main_v9 V0) b = step (matOf (res_main_v1 V0) b) := by
  rw [res9_eq, res5_eq]; exact matOf_round _ b
theorem mat17 (b : Fin 2097152) : matOf (res_main_v17 V0) b = step (matOf (res_main_v9 V0) b) := by
  rw [res17_eq, res13_eq]; exact matOf_round _ b
theorem mat25 (b : Fin 2097152) : matOf (res_main_v25 V0) b = step (matOf (res_main_v17 V0) b) := by
  rw [res25_eq, res21_eq]; exact matOf_round _ b
theorem mat33 (b : Fin 2097152) : matOf (res_main_v33 V0) b = step (matOf (res_main_v25 V0) b) := by
  rw [res33_eq, res29_eq]; exact matOf_round _ b

/-- The last stage, normalised by columns once more, is the fifth round. -/
theorem matLast (b : Fin 2097152) : matOf (hostColN (res_main_v37 V0)) b = step (matOf (res_main_v33 V0) b) := by
  rw [res37_eq]; exact matOf_round _ b

/-- Matrix (a0, a1) of the last array is five rounds from the exponential of matrix (a0, a1) of the input. -/
theorem matLast_eq_sink (a0 : Fin 2048) (a1 : Fin 1024) :
    matOf (hostColN (res_main_v37 V0)) (matIx a0 a1)
      = sink (fun i j => (V0 (Proc.devRef .tc main_arg0) : S2048x1024x8x8.Idx → EReal) (ix4 a0 a1 i j)) := by
  rw [matLast, mat33, mat25, mat17, mat9, res1_eq, matOf_expIn]
  rfl

/-- The reference's result is the array of five rounds from the exponential, matrix by matrix. -/
theorem result_eq :
    (shapeCast _ (Host.divf (res_main_v37 V0) (broadcastInDim S2097152x8x8 ![0, 1, 2] bcast_S2097152x1x8_S2097152x8x8_0_1_2 (broadcastInDim S2097152x1x8 ![0, 2] bcast_S2097152x8_S2097152x1x8_0_2 (Host.reduceAdd (res_main_v37 V0) (constant S_ .f32 0x00000000#32) reducesTo_S2097152x8x8_S2097152x8_d1 h_S_)))) shapeCasts_S2097152x8x8_S2048x1024x8x8 : S2048x1024x8x8.Idx → EReal)
      = Cert.Sinkhorn.G (V0 (Proc.devRef .tc main_arg0)) := by
  funext o
  obtain ⟨a0, a1, i, j, rfl⟩ : ∃ a0 a1 i j, o = ix4 a0 a1 i j := ⟨_, _, _, _, eq_ix4 o⟩
  refine (reshapeOut_apply (hostColN (res_main_v37 V0)) a0 a1 i j).trans ?_
  exact congrFun (congrFun (matLast_eq_sink V0 a0 a1) i) j

end Result

end Cert.ReferenceIdeal.RefValue

end
-- ==== Proof.lean ====
/-
  Both programs compute, for each of the 2048 x 1024 matrices of the input, five Sinkhorn-Knopp rounds from the
  entrywise exponential: rows divided by their sums, then columns by theirs (the specification's `G`).

  The reference does so on the [2097152, 8, 8] view, a sum over the last or the middle axis broadcast back and
  divided. The kernel works on the [1048576, 128] view, two matrices to a row of lanes, and forms each sum as a
  product with a 0/1 matrix that its host lines build from the lane numbers; to that product it adds the product of
  `M - M` with the same matrix, which on the extended reals is zero exactly because every entry stays a positive
  real number — this is where the precondition, every input finite, is used. A change of float format is the
  identity at the ideal values, which is all the ten rewrites of the idealized kernel state.

  The three frames are the generated ones (the reference's is its generated run with the result dropped).
-/
import proofs.«125687_j84765474554153_2_alg».proof.Defs
import proofs.«125687_j84765474554153_2_alg».proof.Proof.Gen.Kernel
import proofs.«125687_j84765474554153_2_alg».proof.Proof.Gen.Kernel.Skeleton
import proofs.«125687_j84765474554153_2_alg».proof.Proof.Gen.Kernel.Launch
import proofs.«125687_j84765474554153_2_alg».proof.Proof.Gen.Kernel.Points
import proofs.«125687_j84765474554153_2_alg».proof.Proof.Gen.Kernel.Frame
import proofs.«125687_j84765474554153_2_alg».proof.Proof.Gen.KernelIdeal
import proofs.«125687_j84765474554153_2_alg».proof.Proof.Gen.KernelIdeal.Skeleton
import proofs.«125687_j84765474554153_2_alg».proof.Proof.Gen.KernelIdeal.Launch
import proofs.«125687_j84765474554153_2_alg».proof.Proof.Gen.KernelIdeal.Points
import proofs.«125687_j84765474554153_2_alg».proof.Proof.Gen.KernelIdeal.Frame
import proofs.«125687_j84765474554153_2_alg».proof.Proof.Gen.ReferenceIdeal
import proofs.«125687_j84765474554153_2_alg».proof.Proof.Gen.ReferenceIdeal.Run
import proofs.«125687_j84765474554153_2_alg».proof.Proof.Gen.Pre_finite_inputs
import proofs.«125687_j84765474554153_2_alg».proof.Proof.Finite
import proofs.«125687_j84765474554153_2_alg».proof.Proof.HostTables
import proofs.«125687_j84765474554153_2_alg».proof.Proof.KernelBlocks
import proofs.«125687_j84765474554153_2_alg».proof.Proof.KernelValue
import proofs.«125687_j84765474554153_2_alg».proof.Proof.ReferenceRounds
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Ten times the same rewrite: widening back what was narrowed to bf16 is the identity at the ideal values. -/
theorem preserves : Cert.preserves_Kernel_KernelIdeal :=
  ⟨IdealRules.truncf_extf.statement Cert.KernelIdeal.S4096x128 .f32 .bf16,
   IdealRules.truncf_extf.statement Cert.KernelIdeal.S4096x128 .f32 .bf16,
   IdealRules.truncf_extf.statement Cert.KernelIdeal.S4096x128 .f32 .bf16,
   IdealRules.truncf_extf.statement Cert.KernelIdeal.S4096x128 .f32 .bf16,
   IdealRules.truncf_extf.statement Cert.KernelIdeal.S4096x128 .f32 .bf16,
   IdealRules.truncf_extf.statement Cert.KernelIdeal.S4096x128 .f32 .bf16,
   IdealRules.truncf_extf.statement Cert.KernelIdeal.S4096x128 .f32 .bf16,
   IdealRules.truncf_extf.statement Cert.KernelIdeal.S4096x128 .f32 .bf16,
   IdealRules.truncf_extf.statement Cert.KernelIdeal.S4096x128 .f32 .bf16,
   IdealRules.truncf_extf.statement Cert.KernelIdeal.S4096x128 .f32 .bf16⟩

/-- The kernel's result array is `G` of its argument, under the precondition. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    shapeCast Cert.KernelIdeal.S2048x1024x8x8
        (Cert.KernelIdeal.Blocks.K (Cert.KernelIdeal.Gen.V m c Cert.KernelIdeal.main_v19)
          (Cert.KernelIdeal.Gen.V m c Cert.KernelIdeal.main_v7) (Cert.KernelIdeal.Gen.V m c Cert.KernelIdeal.main_v18))
        Cert.KernelIdeal.Facts₀.shapeCasts_S1048576x128_S2048x1024x8x8
      = Cert.Sinkhorn.G (m ((c.tc : Thread Cert.KernelIdeal.nD Cert.KernelIdeal.τ).loc Cert.KernelIdeal.main_arg0)) := by
  rw [Cert.KernelIdeal.HostTables.flatInput m c, Cert.KernelIdeal.HostTables.rowTable m c,
    Cert.KernelIdeal.HostTables.colTable m c]
  exact Cert.KernelIdeal.Bridge.kernel_value _ (Cert.Finite.real_of_pre _ (hpre c))

/-- Both programs end at `G` of the argument. -/
theorem algebraic : Cert.algebraic_KernelIdeal_ReferenceIdeal := by
  intro m ρ m' ρ' hpre hagree
  refine ⟨fun c => Cert.Sinkhorn.G (m ((c.tc : Thread Cert.KernelIdeal.nD Cert.KernelIdeal.τ).loc Cert.KernelIdeal.main_arg0)), ?_, ?_⟩
  · exact (θ_run Cert.KernelIdeal.defs _ _).mono
      (fun r h c => ⟨(h c).1.trans (kernel_result m hpre c), (h c).2⟩) (Cert.KernelIdeal.Blocks.run m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq _).trans ?_
    show Cert.Sinkhorn.G (m' ((c.tc : Thread Cert.ReferenceIdeal.nD Cert.ReferenceIdeal.τ).loc Cert.ReferenceIdeal.main_arg0)) = _
    rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
